-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S4096x256 : Shape := ⟨2, ![4096, 256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S4x4096x256 .f32) (main_arg1 : FVec F S4096x256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4x4096x256 : Shape := ⟨3, ![4, 4096, 256]⟩
abbrev S4096x256 : Shape := ⟨2, ![4096, 256]⟩
abbrev S1x512x256 : Shape := ⟨3, ![1, 512, 256]⟩
abbrev S1x4096x256 : Shape := ⟨3, ![1, 4096, 256]⟩
abbrev S512x256 : Shape := ⟨2, ![512, 256]⟩
abbrev S512x4096 : Shape := ⟨2, ![512, 4096]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x256, .f32⟩
  | .hbm, ⟨1, _⟩ => ⟨S4096x256, .f32⟩
  | .hbm, ⟨2, _⟩ => ⟨S4x4096x256, .f32⟩
  | .local _ .vmem, ⟨0, _⟩ => ⟨S1x512x256, .f32⟩
  | .local _ .vmem, ⟨1, _⟩ => ⟨S1x512x256, .f32⟩
  | .local _ .vmem, ⟨2, _⟩ => ⟨S1x4096x256, .f32⟩
  | .local _ .vmem, ⟨3, _⟩ => ⟨S1x4096x256, .f32⟩
  | .local _ .vmem, ⟨4, _⟩ => ⟨S4096x256, .f32⟩
  | .local _ .vmem, ⟨5, _⟩ => ⟨S1x512x256, .f32⟩
  | .local _ .vmem, ⟨6, _⟩ => ⟨S1x512x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  shapeCasts_S512x256_S1x512x256 : S512x256.ShapeCasts S1x512x256
  dot_S512x256_S4096x256_S512x4096_1_1_0_0_n_n_wf : DotDims.WF S512x256 S4096x256 S512x4096 [1] [1] [0] [0] [] []
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S4x4096x256.size a
  hwx0_0 : ∀ i : grid0.Coords, EltTy.bits .f32 = 32 ∨ (Rect.block (s := S4x4096x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S4x4096x256.size a
  hwx0_1 : ∀ i : grid0.Coords, EltTy.bits .f32 = 32 ∨ (Rect.block (s := S4x4096x256) S1x4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .f32 = 32 ∨ (Rect.block (s := S4096x256) S4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S4x4096x256.size a
  hwx0_3 : ∀ i : grid0.Coords, EltTy.bits .f32 = 32 ∨ (Rect.block (s := S4x4096x256) S1x512x256.size (cc0_transform_3 i) (hinb0_3 i)).WholeWords (EltTy.packing .f32)

variable [Facts₀]

def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x256 : Shape := ⟨3, ![4, 4096, 256]⟩
abbrev S4096x256 : Shape := ⟨2, ![4096, 256]⟩
abbrev S4x4096x4096 : Shape := ⟨3, ![4, 4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4096x256, .f32⟩
  | .hbm, ⟨2, _⟩ => ⟨S4x4096x4096, .f32⟩
  | .hbm, ⟨3, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S4x4096x256_S4096x256_S4x4096x4096_2_1_01_0_n_n_wf : DotDims.WF S4x4096x256 S4096x256 S4x4096x4096 [2] [1] [0, 1] [0] [] []
  dot_S4x4096x4096_S4x4096x256_S4x4096x256_2_1_1_2_0_0_wf : DotDims.WF S4x4096x4096 S4x4096x256 S4x4096x256 [2] [1] [1] [2] [0] [0]

variable [Facts₀]

def dot_S4x4096x256_S4096x256_S4x4096x4096_2_1_01_0_n_n : DotDims S4x4096x256 S4096x256 S4x4096x4096 where
  lhsContracting := [2]
  rhsContracting := [1]
  lhsNonContracting := [0, 1]
  rhsNonContracting := [0]
  lhsBatch := []
  rhsBatch := []
  wf := dot_S4x4096x256_S4096x256_S4x4096x4096_2_1_01_0_n_n_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.LaunchedBits.lean ====
/-
  The run of the fused quadratic-attention kernel, with every array after the run named.

  One launch over a 4 × 8 grid.  Point (b, q) is handed three input blocks — rows 512·q … 512·q+511 of x[b]
  (window 0), all of x[b] (window 1), all of W (window 2) — and one output block, rows 512·q … 512·q+511 of
  out[b] (window 3).  Windows 0 and 1 are cut from ONE array, x: the array's points-to is held in two half
  shares, one per window, which is all an input window needs (it is only ever read).  The body loads the three
  input blocks whole, forms (q-tile · Wᵀ) · x[b], and stores it over the whole output block; so after the body the
  input buffers hold their blocks still, and the output buffer holds that product of the blocks.
-/
import proofs.«170267_j32452772889003_1_alg».proof.Proof.Gen.Kernel.Launch
import proofs.«170267_j32452772889003_1_alg».proof.Proof.Gen.Kernel.Skeleton
import proofs.«170267_j32452772889003_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Launched

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered, and the windows' blocks -/

/-- Core `c`'s buffers when the region is entered: as launched (the program is the region alone). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point, fetched there or not: where it is not fetched the
    block index has not moved, and the body left the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output buffer -/

abbrev rQ : Rect S1x512x256 := Rect.unit (s := S1x512x256) ![0, 0, 0] S1x512x256.size inb_S1x512x256_S1x512x256_0_0_0
abbrev rX : Rect S1x4096x256 := Rect.unit (s := S1x4096x256) ![0, 0, 0] S1x4096x256.size inb_S1x4096x256_S1x4096x256_0_0_0
abbrev rW : Rect S4096x256 := Rect.unit (s := S4096x256) ![0, 0] S4096x256.size inb_S4096x256_S4096x256_0_0

/-- The output buffer after the body: its one store, over the whole buffer, of the product of the three loaded
    blocks (query tile `xq`, the batch's rows `xf`, the weights `w`). -/
def out0_3 (xq : Vec F S1x512x256 .f32) (xf : Vec F S1x4096x256 .f32) (w : Vec F S4096x256 .f32) : Vec F S1x512x256 .f32 :=
  View.canon [⟨rQ, k0_pay1 (View.ld xq rQ) (View.ld w rW) (View.ld xf rX)⟩]

/-- The one store covers the buffer. -/
theorem cover0_3 (p0 : Vec F S1x512x256 .f32) (y : S1x512x256.Idx) :
    ∃ pc ∈ ([⟨rQ, p0⟩] : List (View.Piece (Elt F) S1x512x256 .f32)), y ∈ pc.1.set :=
  View.cover_of_tiled [⟨rQ, p0⟩] S1x512x256.size (by rfl) y

/-! ## The body's triple -/

set_option maxHeartbeats 1000000 in
/-- The body on whole staging memrefs — the inputs' at contents `xq`, `xf`, `w`, the output's at anything — runs
    to the end leaving the inputs as they were and the output at `out0_3 xq xf w`. -/
theorem sound_kernel (c : Dev nD) (E : Set ℕ) (i : grid0.Coords)
    (arg2 : Memref sig .tc .vmem S1x512x256 .f32) (harg2 : arg2.IsWhole) (arg3 : Memref sig .tc .vmem S1x4096x256 .f32) (harg3 : arg3.IsWhole)
    (arg4 : Memref sig .tc .vmem S4096x256 .f32) (harg4 : arg4.IsWhole) (arg5 : Memref sig .tc .vmem S1x512x256 .f32) (harg5 : arg5.IsWhole)
    (xq : Vec F S1x512x256 .f32) (xf : Vec F S1x4096x256 .f32) (w : Vec F S4096x256 .f32) (K : PUnit → sProp 𝕄) :
    iprop(owns (c : Thread nD τ) arg2 fullShare xq ∗ owns (c : Thread nD τ) arg3 fullShare xf ∗ owns (c : Thread nD τ) arg4 fullShare w
        ∗ (∃ d, owns (c : Thread nD τ) arg5 fullShare d)
        ∗ (iprop(owns (c : Thread nD τ) arg2 fullShare xq ∗ owns (c : Thread nD τ) arg3 fullShare xf ∗ owns (c : Thread nD τ) arg4 fullShare w
            ∗ owns (c : Thread nD τ) arg5 fullShare (out0_3 xq xf w)) -∗ K ⟨⟩))
      ⊢ wp frame (wpE (defs₀ (F := F)) Variants.none c none) E (cc0__quad_attn_kernel i arg2 harg2 arg3 harg3 arg4 harg4 arg5 harg5) K := by
  simp only [cc0__quad_attn_kernel_eq_skeleton]; unfold cc0__quad_attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The proof data on core `c`: the arrays as the region finds them; after the body at point `t` each input's
    buffer at its block and the output's at `out0_3` of the three blocks; nothing kept between points; the array
    `x` held in two half shares, one per window cut from it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := iprop(emp)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The launch -/

/-- The three arrays behind the four windows: `x` (twice), `W`, the result. -/
theorem arrs_eq : (Finset.univ.image (Pipeline.arrRef spec0)) = [main_arg0, main_arg1, main_v0].toFinset := by decide

theorem share0 (c : Dev nD) : (dats m 0 c).share 0 = fullShare.left := by unfold Dat.share; rfl
theorem share1 (c : Dev nD) : (dats m 0 c).share 1 = fullShare.right := by unfold Dat.share; rfl
theorem share2 (c : Dev nD) : (dats m 0 c).share 2 = fullShare := by unfold Dat.share; rfl
theorem share3 (c : Dev nD) : (dats m 0 c).share 3 = fullShare := by unfold Dat.share; rfl

/-- The three buffers, each whole at the full share, are the four windows' arrays at their shares: the full share of
    `x` is its left half (window 0's) and its right half (window 1's). -/
theorem arrays_of_bufs (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_arg0, main_arg1, main_v0] arrs_eq (by decide), bigSep_W0]
  simp only [bigSepL_cons_cons, bigSepL_singleton]
  rw [share0, share1, share2, share3]
  have h0 : ((cfg0.win 0).arr.view.set) = Finset.univ := (arr_whole0 0).set_eq_univ
  have h2 : ((cfg0.win 2).arr.view.set) = Finset.univ := (arr_whole0 2).set_eq_univ
  have h3 : ((cfg0.win 3).arr.view.set) = Finset.univ := (arr_whole0 3).set_eq_univ
  change iprop((c.tc.loc main_arg0 ↦{fullShare} V m c main_arg0) ∗ (c.tc.loc main_arg1 ↦{fullShare} V m c main_arg1) ∗ (c.tc.loc main_v0 ↦{fullShare} V m c main_v0))
    ⊢ iprop((c.tc.loc main_arg0 ↦[(cfg0.win 0).arr.view.set]{fullShare.left} V m c main_arg0) ∗ (c.tc.loc main_arg0 ↦[(cfg0.win 0).arr.view.set]{fullShare.right} V m c main_arg0)
        ∗ (c.tc.loc main_arg1 ↦[(cfg0.win 2).arr.view.set]{fullShare} V m c main_arg1) ∗ (c.tc.loc main_v0 ↦[(cfg0.win 3).arr.view.set]{fullShare} V m c main_v0))
  rw [h0, h2, h3]
  iintro ⟨H, Hw, Ho⟩
  ihave H' := (pointsTo_share (PosShare.mem_left_op_right fullShare)).1 $$ H
  icases H' with ⟨Hx0, Hx1⟩
  isplitl [Hx0]; · iexact Hx0
  isplitl [Hx1]; · iexact Hx1
  isplitl [Hw]; · iexact Hw
  iexact Ho

/-- The proof's resource algebra: one copy of the staging cells' algebra. -/
abbrev EP : Emb (UR sig nD τ) (MT nD τ sig Unit (Elt F) ℕ (UR sig nD τ) ℕ) := emb₁

/-- The launch element: every staging cell's owner at round 0 and a token for every transfer the pipeline issues. -/
def u₀ : UR sig nD τ := initOf (Pipeline.cells cfgs cellOf_inj) (Pipeline.launchToks cfgs cellOf_inj)

/-- The program up to the region: the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- After the run, every window's array holds what the write-backs leave of its entry contents. -/
def Post (r : PUnit × MemSt nD τ sig (Elt F)) : Prop :=
  ∀ (c : Dev nD) (w : Fin cfg0.W), r.2.mem ((cfg0.win w).arr.view.loc (c : Thread nD τ)) = (dats m 0 c).arrAt w cfg0.N

set_option backward.isDefEq.respectTransparency.types false in
/-- From any memory with zero counters, every weakly fair execution of the program terminates without a fault,
    each window's array at `arrAt w N`. -/
theorem run_main : θ_run defs (onTc (τ := τ) (main (F := F))) (s₀ m ρ) (Post m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := arrays_of_bufs m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The argument arrays end as launched: an input window's array is never written back. -/
theorem kept_arg0 (r : PUnit × MemSt nD τ sig (Elt F)) (h : Post m r) (c : Dev nD) :
    r.2.mem ((c : Thread nD τ).loc main_arg0) = m ((c : Thread nD τ).loc main_arg0) :=
  (h c 0).trans (((dats m 0 c).arrAt_in 0 rfl _).trans (A_eq m c 0))
theorem kept_arg1 (r : PUnit × MemSt nD τ sig (Elt F)) (h : Post m r) (c : Dev nD) :
    r.2.mem ((c : Thread nD τ).loc main_arg1) = m ((c : Thread nD τ).loc main_arg1) :=
  (h c 2).trans (((dats m 0 c).arrAt_in 2 rfl _).trans (A_eq m c 2))

/-- The frame: the program runs to the end without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨kept_arg0 m r h c, kept_arg1 m r h c⟩) (run_main m ρ)

end Cert.Kernel.Launched

end
-- ==== Proof.LaunchedIdeal.lean ====
/-
  The run of the fused quadratic-attention kernel, with every array after the run named.

  One launch over a 4 × 8 grid.  Point (b, q) is handed three input blocks — rows 512·q … 512·q+511 of x[b]
  (window 0), all of x[b] (window 1), all of W (window 2) — and one output block, rows 512·q … 512·q+511 of
  out[b] (window 3).  Windows 0 and 1 are cut from ONE array, x: the array's points-to is held in two half
  shares, one per window, which is all an input window needs (it is only ever read).  The body loads the three
  input blocks whole, forms (q-tile · Wᵀ) · x[b], and stores it over the whole output block; so after the body the
  input buffers hold their blocks still, and the output buffer holds that product of the blocks.
-/
import proofs.«170267_j32452772889003_1_alg».proof.Proof.Gen.KernelIdeal.Launch
import proofs.«170267_j32452772889003_1_alg».proof.Proof.Gen.KernelIdeal.Skeleton
import proofs.«170267_j32452772889003_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered, and the windows' blocks -/

/-- Core `c`'s buffers when the region is entered: as launched (the program is the region alone). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point, fetched there or not: where it is not fetched the
    block index has not moved, and the body left the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output buffer -/

abbrev rQ : Rect S1x512x256 := Rect.unit (s := S1x512x256) ![0, 0, 0] S1x512x256.size inb_S1x512x256_S1x512x256_0_0_0
abbrev rX : Rect S1x4096x256 := Rect.unit (s := S1x4096x256) ![0, 0, 0] S1x4096x256.size inb_S1x4096x256_S1x4096x256_0_0_0
abbrev rW : Rect S4096x256 := Rect.unit (s := S4096x256) ![0, 0] S4096x256.size inb_S4096x256_S4096x256_0_0

/-- The output buffer after the body: its one store, over the whole buffer, of the product of the three loaded
    blocks (query tile `xq`, the batch's rows `xf`, the weights `w`). -/
def out0_3 (xq : Vec F S1x512x256 .f32) (xf : Vec F S1x4096x256 .f32) (w : Vec F S4096x256 .f32) : Vec F S1x512x256 .f32 :=
  View.canon [⟨rQ, k0_pay1 (View.ld xq rQ) (View.ld w rW) (View.ld xf rX)⟩]

/-- The one store covers the buffer. -/
theorem cover0_3 (p0 : Vec F S1x512x256 .f32) (y : S1x512x256.Idx) :
    ∃ pc ∈ ([⟨rQ, p0⟩] : List (View.Piece (Elt F) S1x512x256 .f32)), y ∈ pc.1.set :=
  View.cover_of_tiled [⟨rQ, p0⟩] S1x512x256.size (by rfl) y

/-! ## The body's triple -/

set_option maxHeartbeats 1000000 in
/-- The body on whole staging memrefs — the inputs' at contents `xq`, `xf`, `w`, the output's at anything — runs
    to the end leaving the inputs as they were and the output at `out0_3 xq xf w`. -/
theorem sound_kernel (c : Dev nD) (E : Set ℕ) (i : grid0.Coords)
    (arg2 : Memref sig .tc .vmem S1x512x256 .f32) (harg2 : arg2.IsWhole) (arg3 : Memref sig .tc .vmem S1x4096x256 .f32) (harg3 : arg3.IsWhole)
    (arg4 : Memref sig .tc .vmem S4096x256 .f32) (harg4 : arg4.IsWhole) (arg5 : Memref sig .tc .vmem S1x512x256 .f32) (harg5 : arg5.IsWhole)
    (xq : Vec F S1x512x256 .f32) (xf : Vec F S1x4096x256 .f32) (w : Vec F S4096x256 .f32) (K : PUnit → sProp 𝕄) :
    iprop(owns (c : Thread nD τ) arg2 fullShare xq ∗ owns (c : Thread nD τ) arg3 fullShare xf ∗ owns (c : Thread nD τ) arg4 fullShare w
        ∗ (∃ d, owns (c : Thread nD τ) arg5 fullShare d)
        ∗ (iprop(owns (c : Thread nD τ) arg2 fullShare xq ∗ owns (c : Thread nD τ) arg3 fullShare xf ∗ owns (c : Thread nD τ) arg4 fullShare w
            ∗ owns (c : Thread nD τ) arg5 fullShare (out0_3 xq xf w)) -∗ K ⟨⟩))
      ⊢ wp frame (wpE (defs₀ (F := F)) Variants.none c none) E (cc0__quad_attn_kernel i arg2 harg2 arg3 harg3 arg4 harg4 arg5 harg5) K := by
  simp only [cc0__quad_attn_kernel_eq_skeleton]; unfold cc0__quad_attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The proof data on core `c`: the arrays as the region finds them; after the body at point `t` each input's
    buffer at its block and the output's at `out0_3` of the three blocks; nothing kept between points; the array
    `x` held in two half shares, one per window cut from it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := iprop(emp)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The launch -/

/-- The three arrays behind the four windows: `x` (twice), `W`, the result. -/
theorem arrs_eq : (Finset.univ.image (Pipeline.arrRef spec0)) = [main_arg0, main_arg1, main_v0].toFinset := by decide

theorem share0 (c : Dev nD) : (dats m 0 c).share 0 = fullShare.left := by unfold Dat.share; rfl
theorem share1 (c : Dev nD) : (dats m 0 c).share 1 = fullShare.right := by unfold Dat.share; rfl
theorem share2 (c : Dev nD) : (dats m 0 c).share 2 = fullShare := by unfold Dat.share; rfl
theorem share3 (c : Dev nD) : (dats m 0 c).share 3 = fullShare := by unfold Dat.share; rfl

/-- The three buffers, each whole at the full share, are the four windows' arrays at their shares: the full share of
    `x` is its left half (window 0's) and its right half (window 1's). -/
theorem arrays_of_bufs (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_arg0, main_arg1, main_v0] arrs_eq (by decide), bigSep_W0]
  simp only [bigSepL_cons_cons, bigSepL_singleton]
  rw [share0, share1, share2, share3]
  have h0 : ((cfg0.win 0).arr.view.set) = Finset.univ := (arr_whole0 0).set_eq_univ
  have h2 : ((cfg0.win 2).arr.view.set) = Finset.univ := (arr_whole0 2).set_eq_univ
  have h3 : ((cfg0.win 3).arr.view.set) = Finset.univ := (arr_whole0 3).set_eq_univ
  change iprop((c.tc.loc main_arg0 ↦{fullShare} V m c main_arg0) ∗ (c.tc.loc main_arg1 ↦{fullShare} V m c main_arg1) ∗ (c.tc.loc main_v0 ↦{fullShare} V m c main_v0))
    ⊢ iprop((c.tc.loc main_arg0 ↦[(cfg0.win 0).arr.view.set]{fullShare.left} V m c main_arg0) ∗ (c.tc.loc main_arg0 ↦[(cfg0.win 0).arr.view.set]{fullShare.right} V m c main_arg0)
        ∗ (c.tc.loc main_arg1 ↦[(cfg0.win 2).arr.view.set]{fullShare} V m c main_arg1) ∗ (c.tc.loc main_v0 ↦[(cfg0.win 3).arr.view.set]{fullShare} V m c main_v0))
  rw [h0, h2, h3]
  iintro ⟨H, Hw, Ho⟩
  ihave H' := (pointsTo_share (PosShare.mem_left_op_right fullShare)).1 $$ H
  icases H' with ⟨Hx0, Hx1⟩
  isplitl [Hx0]; · iexact Hx0
  isplitl [Hx1]; · iexact Hx1
  isplitl [Hw]; · iexact Hw
  iexact Ho

/-- The proof's resource algebra: one copy of the staging cells' algebra. -/
abbrev EP : Emb (UR sig nD τ) (MT nD τ sig Unit (Elt F) ℕ (UR sig nD τ) ℕ) := emb₁

/-- The launch element: every staging cell's owner at round 0 and a token for every transfer the pipeline issues. -/
def u₀ : UR sig nD τ := initOf (Pipeline.cells cfgs cellOf_inj) (Pipeline.launchToks cfgs cellOf_inj)

/-- The program up to the region: the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- After the run, every window's array holds what the write-backs leave of its entry contents. -/
def Post (r : PUnit × MemSt nD τ sig (Elt F)) : Prop :=
  ∀ (c : Dev nD) (w : Fin cfg0.W), r.2.mem ((cfg0.win w).arr.view.loc (c : Thread nD τ)) = (dats m 0 c).arrAt w cfg0.N

set_option backward.isDefEq.respectTransparency.types false in
/-- From any memory with zero counters, every weakly fair execution of the program terminates without a fault,
    each window's array at `arrAt w N`. -/
theorem run_main : θ_run defs (onTc (τ := τ) (main (F := F))) (s₀ m ρ) (Post m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := arrays_of_bufs m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The argument arrays end as launched: an input window's array is never written back. -/
theorem kept_arg0 (r : PUnit × MemSt nD τ sig (Elt F)) (h : Post m r) (c : Dev nD) :
    r.2.mem ((c : Thread nD τ).loc main_arg0) = m ((c : Thread nD τ).loc main_arg0) :=
  (h c 0).trans (((dats m 0 c).arrAt_in 0 rfl _).trans (A_eq m c 0))
theorem kept_arg1 (r : PUnit × MemSt nD τ sig (Elt F)) (h : Post m r) (c : Dev nD) :
    r.2.mem ((c : Thread nD τ).loc main_arg1) = m ((c : Thread nD τ).loc main_arg1) :=
  (h c 2).trans (((dats m 0 c).arrAt_in 2 rfl _).trans (A_eq m c 2))

/-- The frame: the program runs to the end without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨kept_arg0 m r h c, kept_arg1 m r h c⟩) (run_main m ρ)

end Cert.KernelIdeal.Launched

end
-- ==== Proof.Tile.lean ====
/-
  What the kernel's body stores, read at an index of the output block.

  The body forms s = q · Wᵀ (a 512 × 4096 matrix product contracting the 256 features) and then o = s · v
  (contracting the 4096 keys), q the query tile, v the batch's rows; the roundings to bf16 between the loads and the
  products are the identity on extended reals.  So entry (r, e) of the stored tile is
  Σ_n (Σ_d q[r, d] · W[n, d]) · v[n, e].
-/
import proofs.«170267_j32452772889003_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## The operand indices of the two products, coordinate by coordinate -/

theorem scores_lhs_0 (j : S512x4096.Idx) (k : dot_S512x256_S4096x256_S512x4096_1_1_0_0_n_n.contr.Idx) : (dot_S512x256_S4096x256_S512x4096_1_1_0_0_n_n.lhsIdx j k 0).val = (j 0).val := by
  unfold DotDims.lhsIdx
  rw [dif_neg (show ¬(0 : Fin S512x256.rank) ∈ dot_S512x256_S4096x256_S512x4096_1_1_0_0_n_n.lhsBatch by decide), dif_pos (show (0 : Fin S512x256.rank) ∈ dot_S512x256_S4096x256_S512x4096_1_1_0_0_n_n.lhsNonContracting by decide)]
  rfl
theorem scores_lhs_1 (j : S512x4096.Idx) (k : dot_S512x256_S4096x256_S512x4096_1_1_0_0_n_n.contr.Idx) : (dot_S512x256_S4096x256_S512x4096_1_1_0_0_n_n.lhsIdx j k 1).val = (k ⟨0, by decide⟩).val :=
  dot_S512x256_S4096x256_S512x4096_1_1_0_0_n_n.lhsIdx_val_of_single rfl j k
theorem scores_rhs_0 (j : S512x4096.Idx) (k : dot_S512x256_S4096x256_S512x4096_1_1_0_0_n_n.contr.Idx) : (dot_S512x256_S4096x256_S512x4096_1_1_0_0_n_n.rhsIdx j k 0).val = (j 1).val := by
  unfold DotDims.rhsIdx
  rw [dif_neg (show ¬(0 : Fin S4096x256.rank) ∈ dot_S512x256_S4096x256_S512x4096_1_1_0_0_n_n.rhsBatch by decide), dif_pos (show (0 : Fin S4096x256.rank) ∈ dot_S512x256_S4096x256_S512x4096_1_1_0_0_n_n.rhsNonContracting by decide)]
  rfl
theorem scores_rhs_1 (j : S512x4096.Idx) (k : dot_S512x256_S4096x256_S512x4096_1_1_0_0_n_n.contr.Idx) : (dot_S512x256_S4096x256_S512x4096_1_1_0_0_n_n.rhsIdx j k 1).val = (k ⟨0, by decide⟩).val :=
  dot_S512x256_S4096x256_S512x4096_1_1_0_0_n_n.rhsIdx_val_of_single rfl j k

theorem mix_lhs_0 (j : S512x256.Idx) (k : dot_S512x4096_S4096x256_S512x256_1_0_0_1_n_n.contr.Idx) : (dot_S512x4096_S4096x256_S512x256_1_0_0_1_n_n.lhsIdx j k 0).val = (j 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem mix_lhs_1 (j : S512x256.Idx) (k : dot_S512x4096_S4096x256_S512x256_1_0_0_1_n_n.contr.Idx) : (dot_S512x4096_S4096x256_S512x256_1_0_0_1_n_n.lhsIdx j k 1).val = (k ⟨0, by decide⟩).val :=
  dot_S512x4096_S4096x256_S512x256_1_0_0_1_n_n.lhsIdx_val_of_single rfl j k
theorem mix_rhs_0 (j : S512x256.Idx) (k : dot_S512x4096_S4096x256_S512x256_1_0_0_1_n_n.contr.Idx) : (dot_S512x4096_S4096x256_S512x256_1_0_0_1_n_n.rhsIdx j k 0).val = (k ⟨0, by decide⟩).val :=
  dot_S512x4096_S4096x256_S512x256_1_0_0_1_n_n.rhsIdx_val_of_single rfl j k
theorem mix_rhs_1 (j : S512x256.Idx) (k : dot_S512x4096_S4096x256_S512x256_1_0_0_1_n_n.contr.Idx) : (dot_S512x4096_S4096x256_S512x256_1_0_0_1_n_n.rhsIdx j k 1).val = (j 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-! ## The two products as sums -/

/-- The first product at (r, n): the sum over the feature axis of q[r, d] · w[n, d] (both operands contract their
    second axis). -/
theorem scores_apply (q : FVec Ideal S512x256 .bf16) (w : FVec Ideal S4096x256 .bf16) (r : Fin 512) (n : Fin 4096) :
    matmul (F := Ideal) dot_S512x256_S4096x256_S512x4096_1_1_0_0_n_n none q w (constant (F := Ideal) S512x4096 .f32 0x00000000#32) (ix2 r n)
      = ∑ d : Fin 256, q (ix2 r d) * w (ix2 n d) := by
  simp only [matmul]
  rw [Ideal.matmul_constant_zero_apply, ← Equiv.sum_comp (ValueIdx.contrEquiv1 dot_S512x256_S4096x256_S512x4096_1_1_0_0_n_n 256 rfl rfl).symm]
  refine Finset.sum_congr rfl fun k _ => ?_
  have hk := ValueIdx.contrEquiv1_symm_val dot_S512x256_S4096x256_S512x4096_1_1_0_0_n_n 256 rfl rfl k
  have el : dot_S512x256_S4096x256_S512x4096_1_1_0_0_n_n.lhsIdx (ix2 r n) ((ValueIdx.contrEquiv1 dot_S512x256_S4096x256_S512x4096_1_1_0_0_n_n 256 rfl rfl).symm k) = ix2 r k := funext fun a => Fin.ext (by
    match a with
    | ⟨0, _⟩ => exact scores_lhs_0 _ _
    | ⟨1, _⟩ => exact (scores_lhs_1 _ _).trans hk)
  have er : dot_S512x256_S4096x256_S512x4096_1_1_0_0_n_n.rhsIdx (ix2 r n) ((ValueIdx.contrEquiv1 dot_S512x256_S4096x256_S512x4096_1_1_0_0_n_n 256 rfl rfl).symm k) = ix2 n k := funext fun a => Fin.ext (by
    match a with
    | ⟨0, _⟩ => exact scores_rhs_0 _ _
    | ⟨1, _⟩ => exact (scores_rhs_1 _ _).trans hk)
  rw [el, er]

/-- The second product at (r, e): the sum over the key axis of s[r, n] · v[n, e]. -/
theorem mix_apply (s : FVec Ideal S512x4096 .bf16) (v : FVec Ideal S4096x256 .bf16) (r : Fin 512) (e : Fin 256) :
    matmul (F := Ideal) dot_S512x4096_S4096x256_S512x256_1_0_0_1_n_n none s v (constant (F := Ideal) S512x256 .f32 0x00000000#32) (ix2 r e)
      = ∑ n : Fin 4096, s (ix2 r n) * v (ix2 n e) := by
  simp only [matmul]
  rw [Ideal.matmul_constant_zero_apply, ← Equiv.sum_comp (ValueIdx.contrEquiv1 dot_S512x4096_S4096x256_S512x256_1_0_0_1_n_n 4096 rfl rfl).symm]
  refine Finset.sum_congr rfl fun k _ => ?_
  have hk := ValueIdx.contrEquiv1_symm_val dot_S512x4096_S4096x256_S512x256_1_0_0_1_n_n 4096 rfl rfl k
  have el : dot_S512x4096_S4096x256_S512x256_1_0_0_1_n_n.lhsIdx (ix2 r e) ((ValueIdx.contrEquiv1 dot_S512x4096_S4096x256_S512x256_1_0_0_1_n_n 4096 rfl rfl).symm k) = ix2 r k := funext fun a => Fin.ext (by
    match a with
    | ⟨0, _⟩ => exact mix_lhs_0 _ _
    | ⟨1, _⟩ => exact (mix_lhs_1 _ _).trans hk)
  have er : dot_S512x4096_S4096x256_S512x256_1_0_0_1_n_n.rhsIdx (ix2 r e) ((ValueIdx.contrEquiv1 dot_S512x4096_S4096x256_S512x256_1_0_0_1_n_n 4096 rfl rfl).symm k) = ix2 k e := funext fun a => Fin.ext (by
    match a with
    | ⟨0, _⟩ => exact (mix_rhs_0 _ _).trans hk
    | ⟨1, _⟩ => exact mix_rhs_1 _ _)
  rw [el, er]

/-! ## The stored tile -/

/-- The stored tile at (0, r, e), from the three loaded blocks: query tile `q`, weights `w`, the batch's rows `v`. -/
theorem stored_apply (q : Vec Ideal S1x512x256 .f32) (w : Vec Ideal S4096x256 .f32) (v : Vec Ideal S1x4096x256 .f32)
    (u : Fin 1) (r : Fin 512) (e : Fin 256) :
    k0_pay1 (F := Ideal) q w v (ix3 u r e)
      = ∑ n : Fin 4096, (∑ d : Fin 256, q (ix3 (0 : Fin 1) r d) * w (ix2 n d)) * v (ix3 (0 : Fin 1) n e) := by
  unfold k0_pay1
  refine (shapeCast_ab_1ab_apply _ _ u r e).trans ?_
  refine (mix_apply _ _ r e).trans ?_
  refine Finset.sum_congr rfl fun n _ => ?_
  rw [truncf_apply, truncf_apply]
  refine congrArg₂ (· * ·) ?_ ?_
  · refine (scores_apply _ _ r n).trans ?_
    refine Finset.sum_congr rfl fun d _ => ?_
    rw [truncf_apply, truncf_apply]
    exact congrArg (· * w (ix2 n d)) (shapeCast_1ab_ab_apply q _ r d)
  · exact shapeCast_1ab_ab_apply v _ n e

end Cert.KernelIdeal.Tile

end
-- ==== Proof.Spec.lean ====
/-
  Quadratic attention over the extended reals, index by index.

  For x : [4, 4096, 256] and W : [4096, 256] the scores are s[b, n, l] = Σ_d x[b, n, d] · W[l, d] and the result is
  out[b, n, e] = Σ_l s[b, n, l] · x[b, l, e].  Both programs compute exactly this nested sum — the kernel on a
  512-row tile of n at a time, the reference on the whole arrays — so no law of the extended reals beyond the
  re-naming of the summation indices is needed, and the inputs' finiteness is never used.
-/
import Idealize.ShloMosaic.PureOps.Ideal
import Idealize.ShloMosaic.Lib.ValueIdx

noncomputable section

namespace Cert.QuadAttn

open Idealize.ShloMosaic Idealize.ShloMosaic.ValueIdx

/-- The score of row `n` of batch `b` against row `l` of the weights: Σ_d x[b, n, d] · W[l, d]. -/
def score (x : (⟨3, ![4, 4096, 256]⟩ : Shape).Idx → EReal) (w : (⟨2, ![4096, 256]⟩ : Shape).Idx → EReal)
    (b : Fin 4) (n l : Fin 4096) : EReal :=
  ∑ d : Fin 256, x (ix3 b n d) * w (ix2 l d)

/-- The result: out[b, n, e] = Σ_l score[b, n, l] · x[b, l, e]. -/
def out (x : (⟨3, ![4, 4096, 256]⟩ : Shape).Idx → EReal) (w : (⟨2, ![4096, 256]⟩ : Shape).Idx → EReal) :
    (⟨3, ![4, 4096, 256]⟩ : Shape).Idx → EReal :=
  fun i => ∑ l : Fin 4096, score x w (i 0) (i 1) l * x (ix3 (i 0) l (i 2))

end Cert.QuadAttn

end
-- ==== Proof.Whole.lean ====
/-
  From the blocks to the array: after the run the result array is `Cert.QuadAttn.out` of the two argument arrays.

  Point t = (b, q) writes back rows 512·q … 512·q+511 of batch b.  What it writes is the stored tile, whose entry
  (r, e) sums over the keys n the score of query row r against weight row n times value row n at feature e; the
  query tile's row r is row 512·q + r of x[b], the value rows are the rows of x[b], the weights are W whole — so
  the entry is out[b, 512·q + r, e].  The thirty-two blocks tile the array, so the array is `out` everywhere.
-/
import proofs.«170267_j32452772889003_1_alg».proof.Proof.LaunchedIdeal
import proofs.«170267_j32452772889003_1_alg».proof.Proof.Tile
import proofs.«170267_j32452772889003_1_alg».proof.Proof.Spec

set_option maxRecDepth 16384

noncomputable section

namespace Cert.KernelIdeal.Whole

open Cert.KernelIdeal Cert.KernelIdeal.Gen Cert.KernelIdeal.Launched
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The block indices over the grid: the query tile and the output tile sit at the same (batch, tile) block of their
    arrays; the full-batch window sits at the batch's block; the weights' window at the one block. -/
theorem block_indices : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 3) ≤ 3 ∧ win0_3.index t (1 : Fin 3) ≤ 7 :=
  (by decide +kernel : ∀ t : Fin grid0.N, _)

/-- Every (batch, tile) block is some point's. -/
theorem block_onto : ∀ (b : Fin 4) (q : Fin 8), ∃ t : Fin cfg0.N, win0_3.index t = ![b.val, q.val, 0] :=
  (by decide +kernel : ∀ (b : Fin 4) (q : Fin 8), ∃ t : Fin grid0.N, win0_3.index t = ![b.val, q.val, 0])

/-! ## The three input blocks read at an index, against the output's array index -/

section Reads
variable (c : Dev nD) (t : Fin cfg0.N) (u : Fin 1) (r : Fin 512) (e : Fin 256)
  (i : S4x4096x256.Idx) (hi : i = ((cfg0.win 3).blk t).view.emb (ix3 u r e))

include hi in
theorem at0 : (i 0).val = win0_3.index t (0 : Fin 3) * 1 + 1 * u.val := by subst hi; rfl
include hi in
theorem at1 : (i 1).val = win0_3.index t (1 : Fin 3) * 512 + 1 * r.val := by subst hi; rfl
include hi in
theorem at2 : (i 2).val = win0_3.index t (2 : Fin 3) * 256 + 1 * e.val := by subst hi; rfl

include hi in
/-- Row r of the query tile is row (i 1) of batch (i 0). -/
theorem query_read (d : Fin 256) : iblk m c 0 t (ix3 (0 : Fin 1) r d) = V m c main_arg0 (ix3 (i 0) (i 1) d) := by
  show V m c main_arg0 (((cfg0.win 0).blk t).view.emb (ix3 (0 : Fin 1) r d)) = V m c main_arg0 (ix3 (i 0) (i 1) d)
  obtain ⟨e0, e1, e2, e3, e4, e5, e6, e7, e8, e9, e10⟩ := block_indices t
  have h0 := at0 t u r e i hi
  have h1 := at1 t u r e i hi
  have hu : u.val = 0 := by omega
  refine congrArg _ (funext fun a => Fin.ext ?_)
  match a with
  | ⟨0, _⟩ => show win0_0.index t (0 : Fin 3) * 1 + 1 * (0 : Fin 1).val = (i 0).val; simp only [Fin.val_zero]; omega
  | ⟨1, _⟩ => show win0_0.index t (1 : Fin 3) * 512 + 1 * r.val = (i 1).val; omega
  | ⟨2, _⟩ => show win0_0.index t (2 : Fin 3) * 256 + 1 * d.val = d.val; omega

/-- The weights' block is the weights. -/
theorem weight_read (n : Fin 4096) (d : Fin 256) : iblk m c 2 t (ix2 n d) = V m c main_arg1 (ix2 n d) := by
  show V m c main_arg1 (((cfg0.win 2).blk t).view.emb (ix2 n d)) = V m c main_arg1 (ix2 n d)
  obtain ⟨e0, e1, e2, e3, e4, e5, e6, e7, e8, e9, e10⟩ := block_indices t
  refine congrArg _ (funext fun a => Fin.ext ?_)
  match a with
  | ⟨0, _⟩ => show win0_2.index t (0 : Fin 2) * 4096 + 1 * n.val = n.val; omega
  | ⟨1, _⟩ => show win0_2.index t (1 : Fin 2) * 256 + 1 * d.val = d.val; omega

include hi in
/-- Row n of the full-batch block is row n of batch (i 0). -/
theorem value_read (n : Fin 4096) : iblk m c 1 t (ix3 (0 : Fin 1) n e) = V m c main_arg0 (ix3 (i 0) n (i 2)) := by
  show V m c main_arg0 (((cfg0.win 1).blk t).view.emb (ix3 (0 : Fin 1) n e)) = V m c main_arg0 (ix3 (i 0) n (i 2))
  obtain ⟨e0, e1, e2, e3, e4, e5, e6, e7, e8, e9, e10⟩ := block_indices t
  have h0 := at0 t u r e i hi
  have h2 := at2 t u r e i hi
  have hu : u.val = 0 := by omega
  refine congrArg _ (funext fun a => Fin.ext ?_)
  match a with
  | ⟨0, _⟩ => show win0_1.index t (0 : Fin 3) * 1 + 1 * (0 : Fin 1).val = (i 0).val; simp only [Fin.val_zero]; omega
  | ⟨1, _⟩ => show win0_1.index t (1 : Fin 3) * 4096 + 1 * n.val = n.val; omega
  | ⟨2, _⟩ => show win0_1.index t (2 : Fin 3) * 256 + 1 * e.val = (i 2).val; omega

include hi in
/-- The stored tile's entry is the result's entry at the array index it is written to. -/
theorem stored_eq :
    k0_pay1 (F := Ideal) (iblk m c 0 t) (iblk m c 2 t) (iblk m c 1 t) (ix3 u r e)
      = Cert.QuadAttn.out (V m c main_arg0) (V m c main_arg1) i := by
  refine (Tile.stored_apply _ _ _ u r e).trans ?_
  unfold Cert.QuadAttn.out Cert.QuadAttn.score
  refine Finset.sum_congr rfl fun n _ => ?_
  refine congrArg₂ (· * ·) ?_ (value_read m c t u r e i hi n)
  refine Finset.sum_congr rfl fun d _ => ?_
  exact congrArg₂ (· * ·) (query_read m c t u r e i hi d) (weight_read m c t n d)

end Reads

/-! ## What each point writes back, the cover, and the array -/

/-- Point `t` writes back block `t` of `out` of the argument arrays. -/
theorem flushed_eq (c : Dev nD) (t : Fin cfg0.N) :
    (dats m 0 c).flushed 3 t = ((cfg0.win 3).blk t).view.read (Elt Ideal) (Cert.QuadAttn.out (V m c main_arg0) (V m c main_arg1)) := by
  show (cfg0.win 3).cut (grid0.coords t) ((dats m 0 c).after 3 t) = _
  rw [after0_3]
  unfold out0_3
  rw [View.canon_unit_zero zero3]
  simp only [View.ld_unit_zero (S := S1x512x256) zero3, View.ld_unit_zero (S := S4096x256) zero2, View.ld_unit_zero (S := S1x4096x256) zero3]
  funext j
  obtain ⟨u, r, e, rfl⟩ : ∃ (u : Fin 1) (r : Fin 512) (e : Fin 256), j = ix3 u r e := ⟨j 0, j 1, j 2, eq_ix3 j⟩
  exact stored_eq m c t u r e _ rfl

/-- An index of the result array is in point `t`'s block iff each coordinate is in the block's range. -/
theorem mem_block (t : Fin cfg0.N) (i : S4x4096x256.Idx) :
    i ∈ ((cfg0.win 3).blk t).view.set ↔ ∀ a : Fin 3, win0_3.index t a * S1x512x256.size a ≤ (i a).val ∧ (i a).val < win0_3.index t a * S1x512x256.size a + S1x512x256.size a := by
  show i ∈ ((View.whole main_v0).slice (win0_3.rect t)).set ↔ _
  rw [View.set_slice_whole, Rect.mem_set_unit]
  exact Iff.rfl

/-- Every index of the result array is in the block of the point (i 0, i 1 / 512). -/
theorem covered (i : S4x4096x256.Idx) : ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 256 := (i 2).isLt
  obtain ⟨t, ht⟩ := block_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 256 ≤ (i 2).val ∧ (i 2).val < win0_3.index t (2 : Fin 3) * 256 + 256; omega

/-- The result array after the run is `out` of the argument arrays. -/
theorem result (c : Dev nD) :
    (dats m 0 c).arrAt 3 cfg0.N = Cert.QuadAttn.out (m ((c : Thread nD τ).loc main_arg0)) (m ((c : Thread nD τ).loc main_arg1)) :=
  (dats m 0 c).arrAt_eq_of_cover 3 (Cert.QuadAttn.out (V m c main_arg0) (V m c main_arg1)) (fun t _ => flushed_eq m c t) covered

/-- The run, read: the result array at `out` of the arguments, the arguments unchanged. -/
theorem run : θ_run defs (onTc (τ := τ) (main (F := Ideal))) ⟨m, fun _ => 0, ρ⟩ fun r => ∀ c : Dev nD,
      r.2.mem ((c : Thread nD τ).loc main_v0) = Cert.QuadAttn.out (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c 3).trans (result m c), kept_arg0 m r h c, kept_arg1 m r h c⟩) (run_main m ρ)

end Cert.KernelIdeal.Whole

end
-- ==== Proof.RefStage.lean ====
/-
  The reference computes `Cert.QuadAttn.out`: its two contractions, read at an index, are the score sum over the
  feature axis and then the sum over the key axis of score times value.
-/
import proofs.«170267_j32452772889003_1_alg».proof.Proof.Gen.ReferenceIdeal.Read
import proofs.«170267_j32452772889003_1_alg».proof.Proof.Spec

noncomputable section

namespace Cert.ReferenceIdeal.Stage

open Cert.ReferenceIdeal Cert.ReferenceIdeal.Read Idealize.ShloMosaic Idealize.ShloMosaic.ValueIdx

/-- The reference's result, as a function of its two arguments, is `out`: at index (b, n, e) the second contraction
    sums over l the first contraction at (b, n, l) — the score — times x[b, l, e]. -/
theorem result_eq (x : (⟨S4x4096x256, .f32⟩ : BufTy).Contents (Elt Ideal)) (w : (⟨S4096x256, .f32⟩ : BufTy).Contents (Elt Ideal)) :
    val_main_v1 (F := Ideal) x w = Cert.QuadAttn.out x w := by
  funext i
  rw [val_main_v1_apply]
  unfold Cert.QuadAttn.out
  refine Finset.sum_congr rfl fun l _ => ?_
  rw [val_main_v0_apply]
  unfold Cert.QuadAttn.score
  have e1 : ridx_main_v1 i l = ix3 (i 0) l (i 2) :=
    funext fun a => by match a with | ⟨0, _⟩ => rfl | ⟨1, _⟩ => rfl | ⟨2, _⟩ => rfl
  have e2 : ∀ d : Fin 256, lidx_main_v0 (lidx_main_v1 i l) d = ix3 (i 0) (i 1) d := fun d =>
    funext fun a => by match a with | ⟨0, _⟩ => rfl | ⟨1, _⟩ => rfl | ⟨2, _⟩ => rfl
  have e3 : ∀ d : Fin 256, ridx_main_v0 (lidx_main_v1 i l) d = ix2 l d := fun d =>
    funext fun a => by match a with | ⟨0, _⟩ => rfl | ⟨1, _⟩ => rfl
  simp only [e1, e2, e3]
  rfl

end Cert.ReferenceIdeal.Stage

end
-- ==== Proof.lean ====
/-
  Fused quadratic attention against its reference: out[b] = (x[b] · Wᵀ) · x[b] for x : [4, 4096, 256], W : [4096, 256].

  The kernel tiles the 4096 query rows of each batch into eight tiles of 512 and, per tile, forms the 512 × 4096
  scores against all of W and mixes all 4096 rows of x[b] with them; the reference contracts the whole arrays twice.
  Over the extended reals, where the roundings to bf16 are the identity, both are the same nested sum
  out[b, n, e] = Σ_l (Σ_d x[b, n, d] · W[l, d]) · x[b, l, e], term for term, so the two results agree with no use of
  the inputs' finiteness.

  The kernel is handed the array x through two windows (a query tile and the whole batch).  Its run is therefore
  proved against the launch theorem that lets windows share an array, the array's points-to split into two half
  shares (Proof/LaunchedIdeal.lean, and the same text for the word-level program in Proof/LaunchedBits.lean);
  Proof/Tile.lean reads the stored tile at an index, Proof/Whole.lean assembles the blocks into the array,
  Proof/RefStage.lean reads the reference's two contractions, Proof/Spec.lean states the common function.
-/
import proofs.«170267_j32452772889003_1_alg».proof.Defs
import proofs.«170267_j32452772889003_1_alg».proof.Proof.Gen.Kernel
import proofs.«170267_j32452772889003_1_alg».proof.Proof.Gen.KernelIdeal
import proofs.«170267_j32452772889003_1_alg».proof.Proof.Gen.ReferenceIdeal
import proofs.«170267_j32452772889003_1_alg».proof.Proof.Gen.Pre_finite_inputs
import proofs.«170267_j32452772889003_1_alg».proof.Proof.Gen.ReferenceIdeal.Run
import proofs.«170267_j32452772889003_1_alg».proof.Proof.Gen.ReferenceIdeal.Read
import proofs.«170267_j32452772889003_1_alg».proof.Proof.LaunchedBits
import proofs.«170267_j32452772889003_1_alg».proof.Proof.LaunchedIdeal
import proofs.«170267_j32452772889003_1_alg».proof.Proof.Whole
import proofs.«170267_j32452772889003_1_alg».proof.Proof.RefStage
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves x and W as launched. -/
theorem frame_kernel : Cert.frame_Kernel := fun m ρ _ => Cert.Kernel.Launched.frame m ρ

/-- So does the kernel read over the extended reals. -/
theorem frame_kernel_ideal : Cert.frame_KernelIdeal := fun m ρ _ => Cert.KernelIdeal.Launched.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result array at `out` of the argument arrays, which agree. -/
theorem algebraic : Cert.algebraic_KernelIdeal_ReferenceIdeal := by
  intro m ρ m' ρ' _ hagree
  refine ⟨fun c => Cert.QuadAttn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.Stage.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
